-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S10000x128 .f32) (main_arg1 : FVec F S10000x10000 .f32) (main_arg2 : FVec F S128x128 .f32) (main_arg3 : FVec F S128 .f32) (main_arg4 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S400x10000 : Shape := ⟨2, ![400, 10000]⟩
abbrev S400x128 : Shape := ⟨2, ![400, 128]⟩
abbrev S1x128 : Shape := ⟨2, ![1, 128]⟩

abbrev nBuf : Space → Nat
  | .hbm => 10
  | .vmem => 12
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S10000x128, .f32⟩
  | .hbm, ⟨6, _⟩ => ⟨S10000x128, .f32⟩
  | .hbm, ⟨7, _⟩ => ⟨S1x128, .f32⟩
  | .hbm, ⟨8, _⟩ => ⟨S1x128, .f32⟩
  | .hbm, ⟨9, _⟩ => ⟨S10000x128, .f32⟩
  | .local _ .vmem, ⟨0, _⟩ => ⟨S10000x128, .f32⟩
  | .local _ .vmem, ⟨1, _⟩ => ⟨S128x128, .f32⟩
  | .local _ .vmem, ⟨2, _⟩ => ⟨S10000x128, .f32⟩
  | .local _ .vmem, ⟨3, _⟩ => ⟨S400x10000, .f32⟩
  | .local _ .vmem, ⟨4, _⟩ => ⟨S400x10000, .f32⟩
  | .local _ .vmem, ⟨5, _⟩ => ⟨S10000x128, .f32⟩
  | .local _ .vmem, ⟨6, _⟩ => ⟨S400x128, .f32⟩
  | .local _ .vmem, ⟨7, _⟩ => ⟨S400x128, .f32⟩
  | .local _ .vmem, ⟨8, _⟩ => ⟨S10000x128, .f32⟩
  | .local _ .vmem, ⟨9, _⟩ => ⟨S1x128, .f32⟩
  | .local _ .vmem, ⟨10, _⟩ => ⟨S1x128, .f32⟩
  | .local _ .vmem, ⟨11, _⟩ => ⟨S10000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg2_1 : Ref sig .tc := ⟨.vmem, 7, rfl⟩
abbrev cc2_stg0_0 : Ref sig .tc := ⟨.vmem, 8, rfl⟩
abbrev cc2_stg1_0 : Ref sig .tc := ⟨.vmem, 9, rfl⟩
abbrev cc2_stg2_0 : Ref sig .tc := ⟨.vmem, 10, rfl⟩
abbrev cc2_stg3_0 : Ref sig .tc := ⟨.vmem, 11, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem2_1 : DmaSem sig := 7
abbrev cc2_sem0_0 : DmaSem sig := 8
abbrev cc2_sem1_0 : DmaSem sig := 9
abbrev cc2_sem2_0 : DmaSem sig := 10
abbrev cc2_sem3_0 : DmaSem sig := 11

abbrev nD : Nat := 1
abbrev τ : Topo := Topo.v7x

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10000x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S400x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := .none

abbrev stage2_0 : Fin 1 → Memref sig .tc .vmem S10000x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S10000x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

class Facts₀ : Prop where
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  inb_S400x10000_S400x10000_0_0 : ∀ a, (![0, 0] : Fin 2 → Nat) a + S400x10000.size a ≤ S400x10000.size a
  h_S400x10000 : 0 < S400x10000.numel
  shapeCasts_S10000x128_S10000x128 : S10000x128.ShapeCasts S10000x128
  inb_S400x128_S400x128_0_0 : ∀ a, (![0, 0] : Fin 2 → Nat) a + S400x128.size a ≤ S400x128.size a
  h_S400x128 : 0 < S400x128.numel
  shapeCasts_S128_S1x128 : S128.ShapeCasts S1x128
  reduces_S10000x128_S128 : S10000x128.Reduces [0] S128
  broadcasts_S1x128_S10000x128 : S1x128.Broadcasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  dot_S10000x128_S128x128_S10000x128_1_0_0_1_n_n_wf : DotDims.WF S10000x128 S128x128 S10000x128 [1] [0] [0] [1] [] []
  dot_S400x10000_S10000x128_S400x128_1_0_0_1_n_n_wf : DotDims.WF S400x10000 S10000x128 S400x128 [1] [0] [0] [1] [] []
  hstage0_0 : ∀ j, (stage0_0 j).IsWhole
  hstage0_1 : ∀ j, (stage0_1 j).IsWhole
  hstage0_2 : ∀ j, (stage0_2 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .f32 = 32 ∨ (Rect.block (s := S10000x128) S10000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S400x128.size a ≤ S10000x128.size a
  hwx1_2 : ∀ i : grid1.Coords, EltTy.bits .f32 = 32 ∨ (Rect.block (s := S10000x128) S400x128.size (cc1_transform_2 i) (hinb1_2 i)).WholeWords (EltTy.packing .f32)
  hstage2_0 : ∀ j, (stage2_0 j).IsWhole
  hstage2_1 : ∀ j, (stage2_1 j).IsWhole
  hstage2_2 : ∀ j, (stage2_2 j).IsWhole
  hstage2_3 : ∀ j, (stage2_3 j).IsWhole

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg2) false false (stage0_1 0) (sem0_1 0) (Memref.isWhole_whole _) (hstage0_1 0)

abbrev win0_2 : Pipeline.Window sig grid0 :=
  Pipeline.Window.whole (Memref.whole main_v0) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S400x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.whole (Memref.whole main_v1) false false (stage2_0 0) (sem2_0 0) (Memref.isWhole_whole _) (hstage2_0 0)

abbrev win2_1 : Pipeline.Window sig grid2 :=
  Pipeline.Window.whole (Memref.whole main_v2) false false (stage2_1 0) (sem2_1 0) (Memref.isWhole_whole _) (hstage2_1 0)

abbrev win2_2 : Pipeline.Window sig grid2 :=
  Pipeline.Window.whole (Memref.whole main_v3) false false (stage2_2 0) (sem2_2 0) (Memref.isWhole_whole _) (hstage2_2 0)

abbrev win2_3 : Pipeline.Window sig grid2 :=
  Pipeline.Window.whole (Memref.whole main_v4) true false (stage2_3 0) (sem2_3 0) (Memref.isWhole_whole _) (hstage2_3 0)

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩
abbrev S1x128 : Shape := ⟨2, ![1, 128]⟩

abbrev nBuf : Space → Nat
  | .hbm => 52
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S10000x128, .f32⟩
  | .hbm, ⟨6, _⟩ => ⟨S10000x128, .f32⟩
  | .hbm, ⟨7, _⟩ => ⟨S_, .f32⟩
  | .hbm, ⟨8, _⟩ => ⟨S128, .f32⟩
  | .hbm, ⟨9, _⟩ => ⟨S_, .f32⟩
  | .hbm, ⟨10, _⟩ => ⟨S128, .f32⟩
  | .hbm, ⟨11, _⟩ => ⟨S128, .f32⟩
  | .hbm, ⟨12, _⟩ => ⟨S_, .i32⟩
  | .hbm, ⟨13, _⟩ => ⟨S_, .f32⟩
  | .hbm, ⟨14, _⟩ => ⟨S128, .f32⟩
  | .hbm, ⟨15, _⟩ => ⟨S1x128, .f32⟩
  | .hbm, ⟨16, _⟩ => ⟨S_, .f32⟩
  | .hbm, ⟨17, _⟩ => ⟨S1x128, .f32⟩
  | .hbm, ⟨18, _⟩ => ⟨S1x128, .f32⟩
  | .hbm, ⟨19, _⟩ => ⟨S10000x128, .f32⟩
  | .hbm, ⟨20, _⟩ => ⟨S10000x128, .f32⟩
  | .hbm, ⟨21, _⟩ => ⟨S10000x128, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S128, .f32⟩
  | .hbm, ⟨27, _⟩ => ⟨S128, .f32⟩
  | .hbm, ⟨28, _⟩ => ⟨S128, .f32⟩
  | .hbm, ⟨29, _⟩ => ⟨S_, .f32⟩
  | .hbm, ⟨30, _⟩ => ⟨S_, .i1⟩
  | .hbm, ⟨31, _⟩ => ⟨S_, .f32⟩
  | .hbm, ⟨32, _⟩ => ⟨S_, .f32⟩
  | .hbm, ⟨33, _⟩ => ⟨S128, .f32⟩
  | .hbm, ⟨34, _⟩ => ⟨S128, .f32⟩
  | .hbm, ⟨35, _⟩ => ⟨S1x128, .f32⟩
  | .hbm, ⟨36, _⟩ => ⟨S10000x128, .f32⟩
  | .hbm, ⟨37, _⟩ => ⟨S10000x128, .f32⟩
  | .hbm, ⟨38, _⟩ => ⟨S_, .f32⟩
  | .hbm, ⟨39, _⟩ => ⟨S128, .f32⟩
  | .hbm, ⟨40, _⟩ => ⟨S128, .f32⟩
  | .hbm, ⟨41, _⟩ => ⟨S128, .f32⟩
  | .hbm, ⟨42, _⟩ => ⟨S1x128, .f32⟩
  | .hbm, ⟨43, _⟩ => ⟨S10000x128, .f32⟩
  | .hbm, ⟨44, _⟩ => ⟨S10000x128, .f32⟩
  | .hbm, ⟨45, _⟩ => ⟨S1x128, .f32⟩
  | .hbm, ⟨46, _⟩ => ⟨S10000x128, .f32⟩
  | .hbm, ⟨47, _⟩ => ⟨S10000x128, .f32⟩
  | .hbm, ⟨48, _⟩ => ⟨S1x128, .f32⟩
  | .hbm, ⟨49, _⟩ => ⟨S10000x128, .f32⟩
  | .hbm, ⟨50, _⟩ => ⟨S10000x128, .f32⟩
  | .hbm, ⟨51, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_call0_cst : Ref sig .tc := ⟨.hbm, 13, rfl⟩
abbrev main_call0_v0 : Ref sig .tc := ⟨.hbm, 14, rfl⟩
abbrev main_call0_v1 : Ref sig .tc := ⟨.hbm, 15, rfl⟩
abbrev main_call0_cst_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_cst_1 : Ref sig .tc := ⟨.hbm, 23, rfl⟩
abbrev main_call0_v8 : Ref sig .tc := ⟨.hbm, 24, rfl⟩
abbrev main_call0_cst_2 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_cst_3 : Ref sig .tc := ⟨.hbm, 29, rfl⟩
abbrev main_call0_v12 : Ref sig .tc := ⟨.hbm, 30, rfl⟩
abbrev main_call0_cst_4 : Ref sig .tc := ⟨.hbm, 31, rfl⟩
abbrev main_call0_call0_v0 : Ref sig .tc := ⟨.hbm, 32, rfl⟩
abbrev main_call0_call0_v1 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_cst_1 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩

abbrev nD : Nat := 1
abbrev τ : Topo := Topo.v7x

variable {F : FTy → Type} [FloatOps F]

class Facts₀ : Prop where
  reducesTo_S10000x128_S128_d0 : S10000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S10000x128_0_1 : S1x128.BroadcastsInDim S10000x128 (![0, 1] : Fin 2 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.KernelRun.lean ====
/-
  The idealized kernel program's run with every unscoped buffer named.

  The program is three kernel regions with one stretch of host operations between the second and the third. Its frame
  proof follows the buffer contents through those four segments as a fold from the launch memory; the same launch, read
  to the end, says more than that the arguments come back unchanged: every weakly fair execution terminates, nothing
  faulting, and in every final state each unscoped buffer of a core holds what that fold leaves in it. The result array
  is one of those buffers, so what the program computes is the fold read at the result.
-/
import proofs.«141391_g16630113370192_cont_week2b_736_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of the program terminates, nothing faulting, and every
    final state has each unscoped buffer of each core at the last segment boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The result array and the five arguments in a final state: the result at the fold's last contents, the arguments as
    launched. -/
theorem run_result : θ_run defs (onTc (τ := τ) (main (F := F))) ⟨m, fun _ => 0, ρ⟩ (fun r => ∀ c : Dev nD,
      r.2.mem ((c.tc : Thread nD τ).loc main_v4) = W4 m ρ c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
      ⟨h c _ (mem_uc main_v4 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩)
    (run_all m ρ)

end Cert.KernelIdeal.Run

end
-- ==== Proof.Layer.lean ====
/-
  The layer this certificate is about, as one function of its five arrays on the extended reals.

  A graph-convolution layer on 10000 nodes with 128 features: the features `X : [10000, 128]` are multiplied by the weights
  `W : [128, 128]`, the result is multiplied from the left by the dense adjacency `A : [10000, 10000]`, and every column of that
  product `Y` is normalised over the nodes — its mean `μ_q = (∑_i Y_iq) / n` is subtracted, the centred column is scaled by
  `1 / √(σ²_q + ε)` with the biased variance `σ²_q = (∑_i (Y_iq − μ_q)²) / n`, then by the gain `g_q`, shifted by `b_q` — and
  passed through `tanh`. `n` is the node count as the word for `10000.0` reads and `ε` the word both programs carry;
  neither is ever evaluated here. Every sum is a sum over a `Fin`, so its order and grouping are immaterial.
-/
import Idealize.ShloMosaic.PureOps.Ideal
import Idealize.ShloMosaic.Lib.ValueIdx

noncomputable section

namespace Cert.GraphNorm

open Idealize.ShloMosaic Idealize.ShloMosaic.ValueIdx
open scoped BigOperators

/-- The entry at row `r`, column `c` of the product of `A : [M, K]` and `B : [K, N]`. -/
def mm {M K N : ℕ} (A : (⟨2, ![M, K]⟩ : Shape).Idx → EReal) (B : (⟨2, ![K, N]⟩ : Shape).Idx → EReal)
    (r : Fin M) (c : Fin N) : EReal :=
  ∑ k : Fin K, A (ix2 r k) * B (ix2 k c)

/-- The product as an array. -/
def mmArr {M K N : ℕ} (A : (⟨2, ![M, K]⟩ : Shape).Idx → EReal) (B : (⟨2, ![K, N]⟩ : Shape).Idx → EReal) :
    (⟨2, ![M, N]⟩ : Shape).Idx → EReal :=
  fun j => mm A B (j 0) (j 1)

theorem mmArr_apply {M K N : ℕ} (A : (⟨2, ![M, K]⟩ : Shape).Idx → EReal) (B : (⟨2, ![K, N]⟩ : Shape).Idx → EReal)
    (r : Fin M) (c : Fin N) : mmArr A B (ix2 r c) = mm A B r c := rfl

/-- The node count, as the f32 word of `10000.0` reads. -/
def count : EReal := Ideal.ofBits .f32 0x461C4000#32
/-- The variance offset, as the f32 word both programs carry reads. -/
def eps : EReal := Ideal.ofBits .f32 0x3727C5AC#32

/-- The sum of column `q`. -/
def colSum {M N : ℕ} (Y : (⟨2, ![M, N]⟩ : Shape).Idx → EReal) (q : Fin N) : EReal := ∑ i : Fin M, Y (ix2 i q)
/-- The mean of column `q`. -/
def colMean {M N : ℕ} (Y : (⟨2, ![M, N]⟩ : Shape).Idx → EReal) (q : Fin N) : EReal := Ideal.div (colSum Y q) count
/-- The entry at `(p, q)` less its column's mean. -/
def centred {M N : ℕ} (Y : (⟨2, ![M, N]⟩ : Shape).Idx → EReal) (p : Fin M) (q : Fin N) : EReal := Y (ix2 p q) - colMean Y q
/-- The biased variance of column `q`. -/
def colVar {M N : ℕ} (Y : (⟨2, ![M, N]⟩ : Shape).Idx → EReal) (q : Fin N) : EReal :=
  Ideal.div (∑ i : Fin M, centred Y i q * centred Y i q) count
/-- The normalised, scaled, shifted entry under `tanh`. -/
def normTanh {M N : ℕ} (Y : (⟨2, ![M, N]⟩ : Shape).Idx → EReal) (g b : (⟨1, ![N]⟩ : Shape).Idx → EReal) (p : Fin M) (q : Fin N) : EReal :=
  Ideal.tanh ((centred Y p q * Ideal.rsqrt (colVar Y q + eps)) * g (ix1 q) + b (ix1 q))

/-- The whole layer: `tanh` of the column-normalised `A · (X · W)`. -/
def layer (X : (⟨2, ![10000, 128]⟩ : Shape).Idx → EReal) (A : (⟨2, ![10000, 10000]⟩ : Shape).Idx → EReal)
    (W : (⟨2, ![128, 128]⟩ : Shape).Idx → EReal) (g b : (⟨1, ![128]⟩ : Shape).Idx → EReal) :
    (⟨2, ![10000, 128]⟩ : Shape).Idx → EReal :=
  fun j => normTanh (mmArr A (mmArr X W)) g b (j 0) (j 1)

theorem layer_apply (X : (⟨2, ![10000, 128]⟩ : Shape).Idx → EReal) (A : (⟨2, ![10000, 10000]⟩ : Shape).Idx → EReal)
    (W : (⟨2, ![128, 128]⟩ : Shape).Idx → EReal) (g b : (⟨1, ![128]⟩ : Shape).Idx → EReal) (p : Fin 10000) (q : Fin 128) :
    layer X A W g b (ix2 p q) = normTanh (mmArr A (mmArr X W)) g b p q := rfl

end Cert.GraphNorm

end
-- ==== Proof.LibDenseRows.lean ====
/-
  Row-wise dense algebra read at an index given by coordinates, at the ideal values: a plain two-dimensional
  contraction `[M, K] · [K, N]` (the kernel's matrix product into a zero accumulator and the host's `dot_general`) as a sum
  over `k : Fin K` of the left operand's row times the right operand's column; a bias vector `[N]` laid along every row of
  `[M, N]` (both spellings: cast to one row then broadcast, and two `broadcast_in_dim`s); a concatenation of two blocks side
  by side along the columns; and a sum along the columns of `[M, N]` (the lane reduction and the host's `reduce`), plain
  and laid back out as a column `[M, 1]` that is broadcast over the columns.
-/
import Idealize.ShloMosaic.Lib.ValueIdx
import Idealize.ShloMosaic.Lib.ValueLayout
import Idealize.ShloMosaic.Lib.Pipeline.Value
import Idealize.ShloMosaic.Lib.KernelVsHost
import Idealize.ShloMosaic.Lib.IdealHost
import Idealize.ShloMosaic.PureOps.Ideal.Laws

noncomputable section

namespace Cert.DenseRows

open Idealize.ShloMosaic Idealize.ShloMosaic.ValueIdx
open scoped BigOperators

/-! ## A plain contraction `[M, K] · [K, N]` -/

/-- For dimension numbers that contract the left operand's columns with the right operand's rows and keep the left rows and
    the right columns in place, the sum over the contraction index at `(r, c)` is the sum over `k : Fin K` of the left
    operand at `(r, k)` times the right operand at `(k, c)`. -/
theorem sum_contr_plain {M K N : ℕ} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A : (⟨2, ![M, K]⟩ : Shape).Idx → EReal) (W : (⟨2, ![K, N]⟩ : Shape).Idx → EReal) (r : Fin M) (c : Fin N) :
    ∑ k : D.contr.Idx, A (D.lhsIdx (ix2 r c) k) * W (D.rhsIdx (ix2 r c) k) = ∑ k : Fin K, A (ix2 r k) * W (ix2 k c) := by
  rw [← Equiv.sum_comp (contrEquiv1 D K hrank hsize).symm]
  refine Finset.sum_congr rfl fun k _ => ?_
  have e1 : D.lhsIdx (ix2 r c) ((contrEquiv1 D K hrank hsize).symm k) = ix2 r k := by
    funext a; apply Fin.ext
    match a with
    | ⟨0, _⟩ => exact hl0 _ _
    | ⟨1, _⟩ => exact (D.lhsIdx_val_of_single hl _ _).trans (contrEquiv1_symm_val D K hrank hsize k)
  have e2 : D.rhsIdx (ix2 r c) ((contrEquiv1 D K hrank hsize).symm k) = ix2 k c := by
    funext a; apply Fin.ext
    match a with
    | ⟨0, _⟩ => exact (D.rhsIdx_val_of_single hr _ _).trans (contrEquiv1_symm_val D K hrank hsize k)
    | ⟨1, _⟩ => exact hr1 _ _
  rw [e1, e2]

/-- The kernel's matrix product into the zero accumulator, at `(r, c)`. -/
theorem matmul_zero_plain_apply {M K N : ℕ} {φ₁ φ₂ : FTy} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A : FVec Ideal ⟨2, ![M, K]⟩ φ₁) (W : FVec Ideal ⟨2, ![K, N]⟩ φ₂) (r : Fin M) (c : Fin N) :
    matmul D none A W (constant (F := Ideal) ⟨2, ![M, N]⟩ .f32 0x00000000#32) (ix2 r c) = ∑ k : Fin K, A (ix2 r k) * W (ix2 k c) :=
  (Ideal.matmul_constant_zero_apply D none A W (ix2 r c)).trans (sum_contr_plain D hl hr hrank hsize hl0 hr1 A W r c)

/-- The host's `dot_general` with the same dimension numbers, at `(r, c)`. -/
theorem dotGeneral_plain_apply {M K N : ℕ} {φ₁ φ₂ : FTy} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A : FVec Ideal ⟨2, ![M, K]⟩ φ₁) (W : FVec Ideal ⟨2, ![K, N]⟩ φ₂) (r : Fin M) (c : Fin N) :
    Host.dotGeneral D none A W (ix2 r c) = ∑ k : Fin K, A (ix2 r k) * W (ix2 k c) :=
  (Ideal.dotGeneral_apply D none .single A W (ix2 r c)).trans (sum_contr_plain D hl hr hrank hsize hl0 hr1 A W r c)

/-! ## A bias vector along every row -/

variable {α : Type}

/-- A vector `[N]` cast to one row `[1, N]` and broadcast down `M` rows reads, at `(r, c)`, the vector at `c`. -/
theorem rowBias_cast_apply {M N : ℕ} (b : (⟨1, ![N]⟩ : Shape).Idx → α) (h1 : (⟨1, ![N]⟩ : Shape).ShapeCasts ⟨2, ![1, N]⟩)
    (h2 : (⟨2, ![1, N]⟩ : Shape).Broadcasts ⟨2, ![M, N]⟩) (r : Fin M) (c : Fin N) :
    broadcastTo ⟨2, ![M, N]⟩ (shapeCast ⟨2, ![1, N]⟩ b h1) h2 (ix2 r c) = b (ix1 c) :=
  (broadcastTo_1b_ab_apply _ h2 r c).trans (shapeCast_a_1a_apply b h1 0 c)

/-- A vector `[N]` placed on axis 1 of `[1, N]` reads, at `(u, c)`, the vector at `c`. -/
theorem broadcastInDim_a_1a_apply {N : ℕ} (b : (⟨1, ![N]⟩ : Shape).Idx → α)
    (h : (⟨1, ![N]⟩ : Shape).BroadcastsInDim ⟨2, ![1, N]⟩ ![1]) (u : Fin 1) (c : Fin N) :
    broadcastInDim ⟨2, ![1, N]⟩ ![1] h b (ix2 u c) = b (ix1 c) := by
  refine broadcastInDim_apply ![1] h b (ix2 u c) (ix1 c) fun a => ?_
  match a with
  | ⟨0, _⟩ =>
    show c.val = if N = 1 then 0 else c.val
    split
    · have := c.isLt; omega
    · rfl

/-- The host's spelling of the same: two `broadcast_in_dim`s, `[N]` to `[1, N]` to `[M, N]`. -/
theorem rowBias_inDim_apply {M N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) (c : Fin N) :
    broadcastInDim ⟨2, ![M, N]⟩ ![0, 1] h2 (broadcastInDim ⟨2, ![1, N]⟩ ![1] h1 b) (ix2 r c) = b (ix1 c) :=
  (broadcastInDim_oneRow_apply h2 _ r c).trans (broadcastInDim_a_1a_apply b h1 0 c)

/-! ## Two blocks side by side -/

/-- Two blocks `[M, A]` and `[M, B]` concatenated along the columns: a column left of `A` reads the first block. -/
theorem concat_cols_left {M A B C : ℕ} (x : (⟨2, ![M, A]⟩ : Shape).Idx → α) (y : (⟨2, ![M, B]⟩ : Shape).Idx → α)
    (h : Shape.Concatenates [⟨2, ![M, A]⟩, ⟨2, ![M, B]⟩] ⟨2, ![M, C]⟩ (1 : Fin 2)) (r : Fin M) (k : Fin C) (hk : k.val < A) :
    concatenate ⟨2, ![M, C]⟩ (1 : Fin 2) [⟨⟨2, ![M, A]⟩, x⟩, ⟨⟨2, ![M, B]⟩, y⟩] h (ix2 r k) = x (ix2 r ⟨k.val, hk⟩) :=
  concatenate_pair_apply_left (1 : Fin 2) x y h (ix2 r k) rfl (ix2 r ⟨k.val, hk⟩) fun b => by
    match b with
    | ⟨0, _⟩ => rfl
    | ⟨1, _⟩ => rfl

/-- … and a column from `A` on reads the second block, `A` columns to the left. -/
theorem concat_cols_right {M A B C : ℕ} (x : (⟨2, ![M, A]⟩ : Shape).Idx → α) (y : (⟨2, ![M, B]⟩ : Shape).Idx → α)
    (h : Shape.Concatenates [⟨2, ![M, A]⟩, ⟨2, ![M, B]⟩] ⟨2, ![M, C]⟩ (1 : Fin 2)) (r : Fin M) (k : Fin C) (hk : A ≤ k.val)
    (hk' : k.val - A < B) :
    concatenate ⟨2, ![M, C]⟩ (1 : Fin 2) [⟨⟨2, ![M, A]⟩, x⟩, ⟨⟨2, ![M, B]⟩, y⟩] h (ix2 r k) = y (ix2 r ⟨k.val - A, hk'⟩) :=
  concatenate_pair_apply_right (1 : Fin 2) x y h (ix2 r k) rfl rfl (ix2 r ⟨k.val - A, hk'⟩)
    (fun b hb => by
      match b with
      | ⟨0, _⟩ => rfl
      | ⟨1, _⟩ => exact absurd rfl hb)
    (by show k.val - A + A = k.val; omega)

/-! ## A sum along the columns -/

/-- The lane reduction of `[M, N]` along its columns from the zero word, at row `r`. -/
theorem laneSum_apply {M N : ℕ} (src : FVec Ideal ⟨2, ![M, N]⟩ .f32) (h : (⟨2, ![M, N]⟩ : Shape).Reduces [(1 : Fin 2)] ⟨1, ![M]⟩)
    (hφ : FKind.Formats .f32) (hacc : (0x00000000#32 : BitVec 32) = FKind.add.neutral .f32 hφ)
    (hlift : ∀ (r : Fin M) (k : Fin N), h.lift (ix1 r) k = ix2 r k) (r : Fin M) :
    multiReduction .add [(1 : Fin 2)] ⟨1, ![M]⟩ src 0x00000000#32 h hφ hacc (ix1 r) = ∑ k : Fin N, src (ix2 r k) :=
  (Ideal.multiReduction_add_single src 0x00000000#32 h hφ hacc (ix1 r)).trans
    (Finset.sum_congr rfl fun k _ => congrArg src (hlift r k))

/-- The host's `reduce` with `add` along the columns from an initial scalar, at row `r`. -/
theorem hostRowSum_apply {M N : ℕ} (x : FVec Ideal ⟨2, ![M, N]⟩ .f32) (init : (⟨0, ![]⟩ : Shape).Idx → Ideal .f32)
    (h' : (⟨2, ![M, N]⟩ : Shape).ReducesTo [(1 : Fin 2)] ⟨1, ![M]⟩) (hu : 0 < (⟨0, ![]⟩ : Shape).numel)
    (h : (⟨2, ![M, N]⟩ : Shape).Reduces [(1 : Fin 2)] ⟨1, ![M]⟩)
    (hlift : ∀ (r : Fin M) (k : Fin N), h.lift (ix1 r) k = ix2 r k) (r : Fin M) :
    Host.reduceAdd x init h' hu (ix1 r) = init (Shape.Idx.first hu) + ∑ k : Fin N, x (ix2 r k) :=
  (hostReduceAdd_apply x init h' hu (ix1 r)).trans
    ((Ideal.hostReduceAdd_single h' h x _ (ix1 r)).trans
      (congrArg (init (Shape.Idx.first hu) + ·) (Finset.sum_congr rfl fun k _ => congrArg x (hlift r k))))

/-- A vector `[M]` placed on axis 0 of `[M, 1]` reads, at `(r, u)`, the vector at `r`. -/
theorem broadcastInDim_a_a1_apply {M : ℕ} (v : (⟨1, ![M]⟩ : Shape).Idx → α)
    (h : (⟨1, ![M]⟩ : Shape).BroadcastsInDim ⟨2, ![M, 1]⟩ ![0]) (r : Fin M) (u : Fin 1) :
    broadcastInDim ⟨2, ![M, 1]⟩ ![0] h v (ix2 r u) = v (ix1 r) := by
  refine broadcastInDim_apply ![0] h v (ix2 r u) (ix1 r) fun a => ?_
  match a with
  | ⟨0, _⟩ =>
    show r.val = if M = 1 then 0 else r.val
    split
    · have := r.isLt; omega
    · rfl

/-- A column `[M, 1]` laid over the columns of `[M, N]` by `broadcast_in_dim` reads, at `(r, c)`, the column at row `r`. -/
theorem broadcastInDim_a1_ab_apply {M N : ℕ} (v : (⟨2, ![M, 1]⟩ : Shape).Idx → α)
    (h : (⟨2, ![M, 1]⟩ : Shape).BroadcastsInDim ⟨2, ![M, N]⟩ ![0, 1]) (r : Fin M) (c : Fin N) :
    broadcastInDim ⟨2, ![M, N]⟩ ![0, 1] h v (ix2 r c) = v (ix2 r (0 : Fin 1)) := by
  refine broadcastInDim_apply ![0, 1] h v (ix2 r c) (ix2 r (0 : Fin 1)) fun a => ?_
  match a with
  | ⟨0, _⟩ =>
    show r.val = if M = 1 then 0 else r.val
    split
    · have := r.isLt; omega
    · rfl
  | ⟨1, _⟩ => rfl

end Cert.DenseRows

end
-- ==== Proof.LibColumnSums.lean ====
/-
  Sums down the columns of a matrix, read at an index given by coordinates, at the ideal values: the reduction of `[M, N]`
  along axis 0 — the kernel's lane reduction from the zero word and the host's `reduce` with `add` from an initial scalar —
  is, at column `c`, the sum over the rows `k : Fin M` of the entry at `(k, c)`. The index the reduction inserts over column
  `c` with row coordinate `k` is `(k, c)`.
-/
import Idealize.ShloMosaic.Lib.ValueIdx
import Idealize.ShloMosaic.Lib.IdealHost
import Idealize.ShloMosaic.PureOps.Ideal.Laws

noncomputable section

namespace Cert.ColumnSums

open Idealize.ShloMosaic Idealize.ShloMosaic.ValueIdx
open scoped BigOperators

/-- For a reduction of `[M, N]` along its rows to `[N]` the source index over column `c` with row coordinate `k` is `(k, c)`. -/
theorem lift_col {M N : ℕ} (h : (⟨2, ![M, N]⟩ : Shape).Reduces [(0 : Fin 2)] ⟨1, ![N]⟩) (c : Fin N) (k : Fin M) :
    h.lift (ix1 c) k = ix2 k c := by
  funext d; apply Fin.ext
  match d with
  | ⟨0, _⟩ => rfl
  | ⟨1, _⟩ => rfl

/-- The lane reduction of `[M, N]` down its columns from the zero word, at column `c`. -/
theorem laneColSum_apply {M N : ℕ} (src : FVec Ideal ⟨2, ![M, N]⟩ .f32)
    (h : (⟨2, ![M, N]⟩ : Shape).Reduces [(0 : Fin 2)] ⟨1, ![N]⟩)
    (hφ : FKind.Formats .f32) (hacc : (0x00000000#32 : BitVec 32) = FKind.add.neutral .f32 hφ) (c : Fin N) :
    multiReduction .add [(0 : Fin 2)] ⟨1, ![N]⟩ src 0x00000000#32 h hφ hacc (ix1 c) = ∑ k : Fin M, src (ix2 k c) :=
  (Ideal.multiReduction_add_single src 0x00000000#32 h hφ hacc (ix1 c)).trans
    (Finset.sum_congr rfl fun k _ => congrArg src (lift_col h c k))

/-- The host's `reduce` with `add` down the columns from an initial scalar, at column `c`. -/
theorem hostColSum_apply {M N : ℕ} (x : FVec Ideal ⟨2, ![M, N]⟩ .f32) (init : (⟨0, ![]⟩ : Shape).Idx → Ideal .f32)
    (h' : (⟨2, ![M, N]⟩ : Shape).ReducesTo [(0 : Fin 2)] ⟨1, ![N]⟩) (hu : 0 < (⟨0, ![]⟩ : Shape).numel)
    (h : (⟨2, ![M, N]⟩ : Shape).Reduces [(0 : Fin 2)] ⟨1, ![N]⟩) (c : Fin N) :
    Host.reduceAdd x init h' hu (ix1 c) = init (Shape.Idx.first hu) + ∑ k : Fin M, x (ix2 k c) :=
  (hostReduceAdd_apply x init h' hu (ix1 c)).trans
    ((Ideal.hostReduceAdd_single h' h x _ (ix1 c)).trans
      (congrArg (init (Shape.Idx.first hu) + ·) (Finset.sum_congr rfl fun k _ => congrArg x (lift_col h c k))))

end Cert.ColumnSums

end
-- ==== Proof.KernelBody.lean ====
/-
  The three kernel bodies' stored values, read at one entry.

  The first body stores the product of its two blocks accumulated into zero: at `(p, q)` the sum over `k` of the left
  block's row `p` times the right block's column `q`. The second does the same with a band of 400 rows of the adjacency
  against the whole support matrix (the support matrix passes through a cast to its own shape, which is the identity).
  The third normalises its block's columns: the column sum is a lane reduction down the rows, laid out as one row
  `[1, 128]`, divided by the node count and laid back over all rows; the block less that row is squared, summed and
  divided the same way; the centred block is scaled by the reciprocal root of that variance plus `ε`, by the gain row, shifted
  by the bias row, and passed through `tanh`. Every step but the reductions and the two layouts is entry by entry.
-/
import proofs.«141391_g16630113370192_cont_week2b_736_2_alg».proof.Proof.Gen.KernelIdeal.Skeleton
import proofs.«141391_g16630113370192_cont_week2b_736_2_alg».proof.Proof.Layer
import proofs.«141391_g16630113370192_cont_week2b_736_2_alg».proof.Proof.LibDenseRows
import proofs.«141391_g16630113370192_cont_week2b_736_2_alg».proof.Proof.LibColumnSums
import Idealize.ShloMosaic.Lib.ValueIdx
import Idealize.ShloMosaic.Lib.ValueLayout
import Idealize.ShloMosaic.Lib.Pipeline.Value

noncomputable section

namespace Cert.KernelIdeal.Body

open Cert.KernelIdeal Cert.KernelIdeal.Gen
open Idealize.ShloMosaic Idealize.ShloMosaic.ValueIdx Cert.GraphNorm
open scoped BigOperators

/-- The first body's product at `(p, q)`. -/
theorem support_apply (x : FVec Ideal S10000x128 .f32) (w : FVec Ideal S128x128 .f32) (p : Fin 10000) (q : Fin 128) :
    k0_pay1 (F := Ideal) x w (ix2 p q) = mm x w p q := by
  unfold k0_pay1
  exact Cert.DenseRows.matmul_zero_plain_apply dot_S10000x128_S128x128_S10000x128_1_0_0_1_n_n rfl rfl rfl rfl
    (fun _ _ => rfl) (fun _ _ => rfl) x w p q

/-- The second body's product of a band of rows with the whole right operand, at `(p, q)` of the band. -/
theorem band_apply (a : FVec Ideal S400x10000 .f32) (s : FVec Ideal S10000x128 .f32) (p : Fin 400) (q : Fin 128) :
    k1_pay1 (F := Ideal) a s (ix2 p q) = mm a s p q := by
  unfold k1_pay1
  rw [shapeCast_self]
  exact Cert.DenseRows.matmul_zero_plain_apply dot_S400x10000_S10000x128_S400x128_1_0_0_1_n_n rfl rfl rfl rfl
    (fun _ _ => rfl) (fun _ _ => rfl) a s p q

/-- The two one-operand operations of the third body, entry by entry. -/
theorem rsqrt_apply {s : Shape} (a : FVec Ideal s .f32) (i : s.Idx) : rsqrt a i = Ideal.rsqrt (a i) := rfl
theorem tanh_apply {s : Shape} (a : FVec Ideal s .f32) (i : s.Idx) : tanh a i = Ideal.tanh (a i) := rfl

/-- A column sum as the third body takes it — the lane reduction down the rows, laid out as one row — at `(u, q)`. -/
theorem colRow_apply (Z : FVec Ideal S10000x128 .f32) (u : Fin 1) (q : Fin 128) :
    shapeCast S1x128 (multiReduction .add [0] S128 Z 0x00000000#32 reduces_S10000x128_S128 (.inl rfl) rfl)
        shapeCasts_S128_S1x128 (ix2 u q) = colSum Z q :=
  (shapeCast_a_1a_apply _ shapeCasts_S128_S1x128 u q).trans
    (Cert.ColumnSums.laneColSum_apply Z reduces_S10000x128_S128 (.inl rfl) rfl q)

/-- The third body's arithmetic over ANY way `sumRow` of taking the column sums of a block as one row: the mean row, the
    centred block, the variance row, the reciprocal root, the gain and the bias rows laid over all rows, `tanh`. -/
def normOver (sumRow : FVec Ideal S10000x128 .f32 → FVec Ideal S1x128 .f32) (y : FVec Ideal S10000x128 .f32)
    (g1 b1 : FVec Ideal S1x128 .f32) : FVec Ideal S10000x128 .f32 :=
  tanh (addf (mulf (mulf
    (subf y (broadcastTo S10000x128 (divf (sumRow y) (broadcast S1x128 (Scalar.ofBits .f32 0x461C4000#32))) broadcasts_S1x128_S10000x128))
    (broadcastTo S10000x128 (rsqrt (addf (divf (sumRow (mulf
        (subf y (broadcastTo S10000x128 (divf (sumRow y) (broadcast S1x128 (Scalar.ofBits .f32 0x461C4000#32))) broadcasts_S1x128_S10000x128))
        (subf y (broadcastTo S10000x128 (divf (sumRow y) (broadcast S1x128 (Scalar.ofBits .f32 0x461C4000#32))) broadcasts_S1x128_S10000x128))))
      (broadcast S1x128 (Scalar.ofBits .f32 0x461C4000#32))) (broadcast S1x128 (Scalar.ofBits .f32 0x3727C5AC#32)))) broadcasts_S1x128_S10000x128))
    (broadcastTo S10000x128 g1 broadcasts_S1x128_S10000x128))
    (broadcastTo S10000x128 b1 broadcasts_S1x128_S10000x128))

/-- When `sumRow` reads as the column sum, that arithmetic at `(p, q)` is the normalised entry under `tanh`. -/
theorem normOver_apply (sumRow : FVec Ideal S10000x128 .f32 → FVec Ideal S1x128 .f32)
    (hs : ∀ (Z : FVec Ideal S10000x128 .f32) (u : Fin 1) (q : Fin 128), sumRow Z (ix2 u q) = colSum Z q)
    (y : FVec Ideal S10000x128 .f32) (g1 b1 : FVec Ideal S1x128 .f32) (p : Fin 10000) (q : Fin 128) :
    normOver sumRow y g1 b1 (ix2 p q)
      = Ideal.tanh ((centred y p q * Ideal.rsqrt (colVar y q + eps)) * g1 (ix2 (0 : Fin 1) q) + b1 (ix2 (0 : Fin 1) q)) := by
  unfold normOver
  simp only [tanh_apply, addf_apply, mulf_apply, subf_apply, rsqrt_apply, divf_apply, broadcastTo_1b_ab_apply, broadcast_apply, hs]
  simp only [colSum, mulf_apply, subf_apply, divf_apply, broadcastTo_1b_ab_apply, broadcast_apply, hs]
  rfl

/-- The third body's value at `(p, q)`: `tanh` of the centred entry scaled by the reciprocal root of the column's variance
    plus `ε`, by the gain row and shifted by the bias row. -/
theorem norm_apply (y : FVec Ideal S10000x128 .f32) (g1 b1 : FVec Ideal S1x128 .f32) (p : Fin 10000) (q : Fin 128) :
    k2_pay1 (F := Ideal) y g1 b1 (ix2 p q)
      = Ideal.tanh ((centred y p q * Ideal.rsqrt (colVar y q + eps)) * g1 (ix2 (0 : Fin 1) q) + b1 (ix2 (0 : Fin 1) q)) := by
  unfold k2_pay1
  simp only [shapeCast_self]
  exact normOver_apply
    (fun Z => shapeCast S1x128 (multiReduction .add [0] S128 Z 0x00000000#32 reduces_S10000x128_S128 (.inl rfl) rfl) shapeCasts_S128_S1x128)
    colRow_apply y g1 b1 p q

end Cert.KernelIdeal.Body

end
-- ==== Proof.SupportArray.lean ====
/-
  The first kernel region's output array: the support matrix `X · W`.

  The region has no grid: its one point stages the two operands whole, the body stores their product accumulated into
  zero, and the point's write-back fills the whole output array. So, whatever the core's buffers hold when the region is
  entered, the output array ends at the product of the two operand arrays as the region found them.
-/
import proofs.«141391_g16630113370192_cont_week2b_736_2_alg».proof.Proof.Gen.KernelIdeal.Frame
import proofs.«141391_g16630113370192_cont_week2b_736_2_alg».proof.Proof.KernelBody
import Idealize.ShloMosaic.Lib.Pipeline.Value

set_option maxRecDepth 16384

noncomputable section

namespace Cert.KernelIdeal.Support

open Cert.KernelIdeal Cert.KernelIdeal.Gen
open Idealize.ShloMosaic Idealize.ShloMosaic.TcCoe Idealize.ShloMosaic.ValueIdx Cert.GraphNorm
open Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The body's product as an array. -/
theorem support_eq (x : FVec Ideal S10000x128 .f32) (w : FVec Ideal S128x128 .f32) :
    k0_pay1 (F := Ideal) x w = mmArr x w := by
  funext j
  obtain ⟨p, q, rfl⟩ : ∃ (p : Fin 10000) (q : Fin 128), j = ix2 p q := ⟨j 0, j 1, eq_ix2 j⟩
  exact Body.support_apply x w p q

/-- Every window's one block sits at block index zero on both axes. -/
theorem block_index : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- The features' block is the whole array. -/
theorem features_block (c : Dev nD) (t : Fin cfg0.N) : iblk0 V c 0 t = V c main_arg0 := by
  funext j
  show V c main_arg0 (((cfg0.win 0).blk t).view.emb j) = V c main_arg0 j
  refine congrArg _ (funext fun a => Fin.ext ?_)
  obtain ⟨e0, e1, -⟩ := block_index t
  match a with
  | ⟨0, _⟩ => show win0_0.index t (0 : Fin 2) * 10000 + 1 * (j 0).val = (j 0).val; omega
  | ⟨1, _⟩ => show win0_0.index t (1 : Fin 2) * 128 + 1 * (j 1).val = (j 1).val; omega

/-- The weights' block is the whole array. -/
theorem weights_block (c : Dev nD) (t : Fin cfg0.N) : iblk0 V c 1 t = V c main_arg2 := by
  funext j
  show V c main_arg2 (((cfg0.win 1).blk t).view.emb j) = V c main_arg2 j
  refine congrArg _ (funext fun a => Fin.ext ?_)
  obtain ⟨-, -, e0, e1, -⟩ := block_index t
  match a with
  | ⟨0, _⟩ => show win0_1.index t (0 : Fin 2) * 128 + 1 * (j 0).val = (j 0).val; omega
  | ⟨1, _⟩ => show win0_1.index t (1 : Fin 2) * 128 + 1 * (j 1).val = (j 1).val; omega

/-- What the point writes back is the product of the operand arrays, read through the output's block. -/
theorem flushed (c : Dev nD) (t : Fin cfg0.N) :
    (dat0 V c).flushed 2 t = ((cfg0.win 2).blk t).view.read (Elt Ideal) (mmArr (V c main_arg0) (V c main_arg2)) := by
  show (cfg0.win 2).cut (grid0.coords t) ((dat0 V c).after 2 t) = _
  rw [after0_2]
  unfold out0_2
  rw [View.canon_unit_zero origin]
  simp only [View.ld_unit_zero (S := S10000x128) origin, View.ld_unit_zero (S := S128x128) origin]
  rw [features_block, weights_block]
  funext j
  show k0_pay1 (F := Ideal) (V c main_arg0) (V c main_arg2) j = mmArr (V c main_arg0) (V c main_arg2) (((cfg0.win 2).blk t).view.emb j)
  have hj : ((cfg0.win 2).blk t).view.emb j = j := by
    funext a; apply Fin.ext
    obtain ⟨-, -, -, -, e0, e1⟩ := block_index t
    match a with
    | ⟨0, _⟩ => show win0_2.index t (0 : Fin 2) * 10000 + 1 * (j 0).val = (j 0).val; omega
    | ⟨1, _⟩ => show win0_2.index t (1 : Fin 2) * 128 + 1 * (j 1).val = (j 1).val; omega
  rw [hj, support_eq]

/-- An index of the output array is in the point's block iff each coordinate is in the block's range on its axis. -/
theorem mem_block (t : Fin cfg0.N) (i : S10000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v0).slice (win0_2.rect t)).set ↔ _
  rw [View.set_slice_whole, Rect.mem_set_unit]
  exact Iff.rfl

/-- The output array after the region: the product of the two operand arrays as the region found them. -/
theorem final (c : Dev nD) : (dat0 V c).arrAt 2 cfg0.N = mmArr (V c main_arg0) (V c main_arg2) :=
  (dat0 V c).arrAt_eq_of_cover 2 _ (fun t _ => flushed V c t) (fun i => ⟨t0_0, flush0_2 t0_0, by
    rw [mem_block]
    obtain ⟨-, -, -, -, e0, e1⟩ := block_index t0_0
    intro a
    match a with
    | ⟨0, _⟩ => show win0_2.index t0_0 (0 : Fin 2) * 10000 ≤ (i 0).val ∧ (i 0).val < win0_2.index t0_0 (0 : Fin 2) * 10000 + 10000; have h0 : (i 0).val < 10000 := (i 0).isLt; omega
    | ⟨1, _⟩ => show win0_2.index t0_0 (1 : Fin 2) * 128 ≤ (i 1).val ∧ (i 1).val < win0_2.index t0_0 (1 : Fin 2) * 128 + 128; have h1 : (i 1).val < 128 := (i 1).isLt; omega⟩)

end Cert.KernelIdeal.Support

end
-- ==== Proof.AggregateArray.lean ====
/-
  The second kernel region's output array: the aggregated matrix `A · S`.

  The region walks a grid of 25 points. Point `t` stages the band of rows `400 t … 400 t + 399` of the adjacency `A` and
  the whole support matrix `S`, the body stores the band's product with `S` accumulated into zero, and the write-back puts
  it on rows `400 t … 400 t + 399` of the output. Row `400 t + p` of the product of the band with `S` is row `400 t + p` of
  `A · S`, and the 25 bands tile the 10000 rows, so the output array ends at `A · S` of the arrays the region found.
-/
import proofs.«141391_g16630113370192_cont_week2b_736_2_alg».proof.Proof.Gen.KernelIdeal.Frame
import proofs.«141391_g16630113370192_cont_week2b_736_2_alg».proof.Proof.KernelBody
import Idealize.ShloMosaic.Lib.Pipeline.Value

set_option maxRecDepth 16384

noncomputable section

namespace Cert.KernelIdeal.Aggregate

open Cert.KernelIdeal Cert.KernelIdeal.Gen
open Idealize.ShloMosaic Idealize.ShloMosaic.TcCoe Idealize.ShloMosaic.ValueIdx Cert.GraphNorm
open Idealize.SL.Sem
open Idealize.ShloMosaic.Pipeline (Dat Cfg Window)
open scoped BigOperators

variable (V : (c : Dev nD) → (b : Ref sig .tc) → Buf (Elt Ideal) ((c : Thread nD τ).loc b))

theorem origin : (![0, 0] : Fin 2 → Nat) = fun _ => 0 := funext fun a => by fin_cases a <;> rfl

/-- A band's product with the right operand at `(p, q)`, when the band's row `p` is row `P` of a taller left operand: row `P`
    of the taller product. -/
theorem band_row (A : FVec Ideal S10000x10000 .f32) (S : FVec Ideal S10000x128 .f32) (a : FVec Ideal S400x10000 .f32)
    (p : Fin 400) (P : Fin 10000) (q : Fin 128) (ha : ∀ k : Fin 10000, a (ix2 p k) = A (ix2 P k)) :
    k1_pay1 (F := Ideal) a S (ix2 p q) = mm A S P q :=
  (Body.band_apply a S p q).trans (Finset.sum_congr rfl fun k _ => by rw [ha k])

/-- The block indices over the grid: the adjacency's band and the output's band move with the point along the rows, the
    support matrix stays whole. -/
theorem block_index : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The support matrix's block is the whole array at every point. -/
theorem support_block (c : Dev nD) (t : Fin cfg1.N) : iblk1 V c 1 t = V c main_v0 := by
  funext j
  show V c main_v0 (((cfg1.win 1).blk t).view.emb j) = V c main_v0 j
  refine congrArg _ (funext fun a => Fin.ext ?_)
  obtain ⟨-, -, e0, e1, -⟩ := block_index t
  match a with
  | ⟨0, _⟩ => show win1_1.index t (0 : Fin 2) * 10000 + 1 * (j 0).val = (j 0).val; omega
  | ⟨1, _⟩ => show win1_1.index t (1 : Fin 2) * 128 + 1 * (j 1).val = (j 1).val; omega

/-- What point `t` writes back is band `t` of `A · S`, read through the output's block. -/
theorem flushed (c : Dev nD) (t : Fin cfg1.N) :
    (dat1 V c).flushed 2 t = ((cfg1.win 2).blk t).view.read (Elt Ideal) (mmArr (V c main_arg1) (V c main_v0)) := by
  show (cfg1.win 2).cut (grid1.coords t) ((dat1 V c).after 2 t) = _
  rw [after1_2]
  unfold out1_2
  rw [View.canon_unit_zero origin]
  simp only [View.ld_unit_zero (S := S400x10000) origin, View.ld_unit_zero (S := S10000x128) origin]
  rw [support_block]
  obtain ⟨e0, e1, -, -, e4, e5⟩ := block_index t
  funext j
  obtain ⟨p, q, rfl⟩ : ∃ (p : Fin 400) (q : Fin 128), j = ix2 p q := ⟨j 0, j 1, eq_ix2 j⟩
  show k1_pay1 (F := Ideal) (iblk1 V c 0 t) (V c main_v0) (ix2 p q)
    = mm (V c main_arg1) (V c main_v0) ((((cfg1.win 2).blk t).view.emb (ix2 p q)) 0) ((((cfg1.win 2).blk t).view.emb (ix2 p q)) 1)
  have hq : (((cfg1.win 2).blk t).view.emb (ix2 p q)) 1 = q := by
    apply Fin.ext
    show win1_2.index t (1 : Fin 2) * 128 + 1 * q.val = q.val
    omega
  rw [hq]
  refine band_row (V c main_arg1) (V c main_v0) (iblk1 V c 0 t) p _ q fun k => ?_
  show V c main_arg1 (((cfg1.win 0).blk t).view.emb (ix2 p k)) = V c main_arg1 (ix2 ((((cfg1.win 2).blk t).view.emb (ix2 p q)) 0) k)
  refine congrArg _ (funext fun a => Fin.ext ?_)
  match a with
  | ⟨0, _⟩ => show win1_0.index t (0 : Fin 2) * 400 + 1 * p.val = win1_2.index t (0 : Fin 2) * 400 + 1 * p.val; omega
  | ⟨1, _⟩ => show win1_0.index t (1 : Fin 2) * 10000 + 1 * k.val = k.val; omega

/-- An index of the output array is in point `t`'s block iff each coordinate is in the block's range on its axis. -/
theorem mem_block (t : Fin cfg1.N) (i : S10000x128.Idx) :
    i ∈ ((cfg1.win 2).blk t).view.set ↔ ∀ a : Fin 2, win1_2.index t a * S400x128.size a ≤ (i a).val ∧ (i a).val < win1_2.index t a * S400x128.size a + S400x128.size a := by
  show i ∈ ((View.whole main_v1).slice (win1_2.rect t)).set ↔ _
  rw [View.set_slice_whole, Rect.mem_set_unit]
  exact Iff.rfl

/-- The output array after the region: `A · S` of the two operand arrays as the region found them. Row `r` is written by
    point `r / 400`. -/
theorem final (c : Dev nD) : (dat1 V c).arrAt 2 cfg1.N = mmArr (V c main_arg1) (V c main_v0) :=
  (dat1 V c).arrAt_eq_of_cover 2 _ (fun t _ => flushed V c t) (fun i => by
    have h0 : (i 0).val < 10000 := (i 0).isLt
    have h1 : (i 1).val < 128 := (i 1).isLt
    have hN : cfg1.N = 25 := N_1
    let t : Fin cfg1.N := ⟨(i 0).val / 400, by rw [hN]; omega⟩
    refine ⟨t, flush1_2 t, ?_⟩
    rw [mem_block]
    obtain ⟨-, -, -, -, e4, e5⟩ := block_index t
    have ht : t.val = (i 0).val / 400 := rfl
    intro a
    match a with
    | ⟨0, _⟩ => show win1_2.index t (0 : Fin 2) * 400 ≤ (i 0).val ∧ (i 0).val < win1_2.index t (0 : Fin 2) * 400 + 400; omega
    | ⟨1, _⟩ => show win1_2.index t (1 : Fin 2) * 128 ≤ (i 1).val ∧ (i 1).val < win1_2.index t (1 : Fin 2) * 128 + 128; omega)

end Cert.KernelIdeal.Aggregate

end
-- ==== Proof.NormalisedArray.lean ====
/-
  The third kernel region's output array: the column-normalised matrix under `tanh`.

  The region has no grid: its one point stages the aggregated matrix `Y`, the gain row and the bias row whole, the body
  stores `tanh` of the normalised, scaled and shifted block, and the write-back fills the whole output array. So the
  output array ends, entry by entry, at that function of the three arrays as the region found them.
-/
import proofs.«141391_g16630113370192_cont_week2b_736_2_alg».proof.Proof.Gen.KernelIdeal.Frame
import proofs.«141391_g16630113370192_cont_week2b_736_2_alg».proof.Proof.KernelBody
import Idealize.ShloMosaic.Lib.Pipeline.Value

set_option maxRecDepth 16384

noncomputable section

namespace Cert.KernelIdeal.Normalised

open Cert.KernelIdeal Cert.KernelIdeal.Gen
open Idealize.ShloMosaic Idealize.ShloMosaic.TcCoe Idealize.ShloMosaic.ValueIdx Cert.GraphNorm
open Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The normalised entry under `tanh` with the gain and the bias given as rows `[1, 128]`, as an array. -/
def rowsArr (y : S10000x128.Idx → EReal) (g1 b1 : S1x128.Idx → EReal) : S10000x128.Idx → EReal :=
  fun j => Ideal.tanh ((centred y (j 0) (j 1) * Ideal.rsqrt (colVar y (j 1) + eps)) * g1 (ix2 (0 : Fin 1) (j 1)) + b1 (ix2 (0 : Fin 1) (j 1)))

/-- The body's value as that array. -/
theorem norm_eq (y : FVec Ideal S10000x128 .f32) (g1 b1 : FVec Ideal S1x128 .f32) :
    k2_pay1 (F := Ideal) y g1 b1 = rowsArr y g1 b1 := by
  funext j
  obtain ⟨p, q, rfl⟩ : ∃ (p : Fin 10000) (q : Fin 128), j = ix2 p q := ⟨j 0, j 1, eq_ix2 j⟩
  exact Body.norm_apply y g1 b1 p q

/-- Every window's one block sits at block index zero on both axes. -/
theorem block_index : ∀ t : Fin cfg2.N, win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0 :=
  (by decide +kernel : ∀ t : Fin grid2.N, _)

/-- The aggregated matrix's block is the whole array. -/
theorem matrix_block (c : Dev nD) (t : Fin cfg2.N) : iblk2 V c 0 t = V c main_v1 := by
  funext j
  show V c main_v1 (((cfg2.win 0).blk t).view.emb j) = V c main_v1 j
  refine congrArg _ (funext fun a => Fin.ext ?_)
  obtain ⟨e0, e1, -⟩ := block_index t
  match a with
  | ⟨0, _⟩ => show win2_0.index t (0 : Fin 2) * 10000 + 1 * (j 0).val = (j 0).val; omega
  | ⟨1, _⟩ => show win2_0.index t (1 : Fin 2) * 128 + 1 * (j 1).val = (j 1).val; omega

/-- The gain row's block is the whole array. -/
theorem gain_block (c : Dev nD) (t : Fin cfg2.N) : iblk2 V c 1 t = V c main_v2 := by
  funext j
  show V c main_v2 (((cfg2.win 1).blk t).view.emb j) = V c main_v2 j
  refine congrArg _ (funext fun a => Fin.ext ?_)
  obtain ⟨-, -, e0, e1, -⟩ := block_index t
  match a with
  | ⟨0, _⟩ => show win2_1.index t (0 : Fin 2) * 1 + 1 * (j 0).val = (j 0).val; omega
  | ⟨1, _⟩ => show win2_1.index t (1 : Fin 2) * 128 + 1 * (j 1).val = (j 1).val; omega

/-- The bias row's block is the whole array. -/
theorem bias_block (c : Dev nD) (t : Fin cfg2.N) : iblk2 V c 2 t = V c main_v3 := by
  funext j
  show V c main_v3 (((cfg2.win 2).blk t).view.emb j) = V c main_v3 j
  refine congrArg _ (funext fun a => Fin.ext ?_)
  obtain ⟨-, -, -, -, e0, e1, -⟩ := block_index t
  match a with
  | ⟨0, _⟩ => show win2_2.index t (0 : Fin 2) * 1 + 1 * (j 0).val = (j 0).val; omega
  | ⟨1, _⟩ => show win2_2.index t (1 : Fin 2) * 128 + 1 * (j 1).val = (j 1).val; omega

/-- What the point writes back is that array of the three operand arrays, read through the output's block. -/
theorem flushed (c : Dev nD) (t : Fin cfg2.N) :
    (dat2 V c).flushed 3 t = ((cfg2.win 3).blk t).view.read (Elt Ideal) (rowsArr (V c main_v1) (V c main_v2) (V c main_v3)) := by
  show (cfg2.win 3).cut (grid2.coords t) ((dat2 V c).after 3 t) = _
  rw [after2_3]
  unfold out2_3
  rw [View.canon_unit_zero origin]
  simp only [View.ld_unit_zero (S := S10000x128) origin, View.ld_unit_zero (S := S1x128) origin]
  rw [matrix_block, gain_block, bias_block]
  funext j
  show k2_pay1 (F := Ideal) (V c main_v1) (V c main_v2) (V c main_v3) j
    = rowsArr (V c main_v1) (V c main_v2) (V c main_v3) (((cfg2.win 3).blk t).view.emb j)
  have hj : ((cfg2.win 3).blk t).view.emb j = j := by
    funext a; apply Fin.ext
    obtain ⟨-, -, -, -, -, -, e0, e1⟩ := block_index t
    match a with
    | ⟨0, _⟩ => show win2_3.index t (0 : Fin 2) * 10000 + 1 * (j 0).val = (j 0).val; omega
    | ⟨1, _⟩ => show win2_3.index t (1 : Fin 2) * 128 + 1 * (j 1).val = (j 1).val; omega
  rw [hj, norm_eq]

/-- An index of the output array is in the point's block iff each coordinate is in the block's range on its axis. -/
theorem mem_block (t : Fin cfg2.N) (i : S10000x128.Idx) :
    i ∈ ((cfg2.win 3).blk t).view.set ↔ ∀ a : Fin 2, win2_3.index t a * S10000x128.size a ≤ (i a).val ∧ (i a).val < win2_3.index t a * S10000x128.size a + S10000x128.size a := by
  show i ∈ ((View.whole main_v4).slice (win2_3.rect t)).set ↔ _
  rw [View.set_slice_whole, Rect.mem_set_unit]
  exact Iff.rfl

/-- The output array after the region. -/
theorem final (c : Dev nD) : (dat2 V c).arrAt 3 cfg2.N = rowsArr (V c main_v1) (V c main_v2) (V c main_v3) :=
  (dat2 V c).arrAt_eq_of_cover 3 _ (fun t _ => flushed V c t) (fun i => ⟨t2_0, flush2_3 t2_0, by
    rw [mem_block]
    obtain ⟨-, -, -, -, -, -, e0, e1⟩ := block_index t2_0
    intro a
    match a with
    | ⟨0, _⟩ => show win2_3.index t2_0 (0 : Fin 2) * 10000 ≤ (i 0).val ∧ (i 0).val < win2_3.index t2_0 (0 : Fin 2) * 10000 + 10000; have h0 : (i 0).val < 10000 := (i 0).isLt; omega
    | ⟨1, _⟩ => show win2_3.index t2_0 (1 : Fin 2) * 128 ≤ (i 1).val ∧ (i 1).val < win2_3.index t2_0 (1 : Fin 2) * 128 + 128; have h1 : (i 1).val < 128 := (i 1).isLt; omega⟩)

end Cert.KernelIdeal.Normalised

end
-- ==== Proof.KernelValue.lean ====
/-
  What the idealized kernel program leaves in its result array: the layer of its five argument arrays.

  Follow the buffer contents through the program's four segments. The first region leaves the support matrix `X · W` of the
  launch contents of the features and the weights; the second finds it there, finds the adjacency as launched, and leaves
  `A · (X · W)`; the host stretch lays the gain and the bias vectors out as rows `[1, 128]` and touches nothing else; the
  third region finds all three and leaves the column-normalised matrix under `tanh`. A vector laid out as one row reads,
  at `(0, q)`, the vector at `q`, so the result is the layer of the launch contents.
-/
import proofs.«141391_g16630113370192_cont_week2b_736_2_alg».proof.Proof.KernelRun
import proofs.«141391_g16630113370192_cont_week2b_736_2_alg».proof.Proof.SupportArray
import proofs.«141391_g16630113370192_cont_week2b_736_2_alg».proof.Proof.AggregateArray
import proofs.«141391_g16630113370192_cont_week2b_736_2_alg».proof.Proof.NormalisedArray
import Idealize.ShloMosaic.Lib.StableHlo.Run
import Idealize.ShloMosaic.Lib.ValueLayout

set_option maxRecDepth 16384

noncomputable section

namespace Cert.KernelIdeal.Result

open Cert.KernelIdeal Cert.KernelIdeal.Gen
open Idealize.ShloMosaic Idealize.ShloMosaic.TcCoe Idealize.ShloMosaic.ValueIdx Cert.GraphNorm
open Idealize.SL.Sem

variable (m : (ℓ : Loc nD τ sig) → Buf (Elt Ideal) ℓ) (ρ : Dev nD → PrngReg)

/-- After the first region the support buffer holds `X · W` of the launch contents. -/
theorem support_at (c : Dev nD) :
    W1 m ρ c (Proc.devRef .tc main_v0) = mmArr (m ((c.tc : Thread nD τ).loc main_arg0)) (m ((c.tc : Thread nD τ).loc main_arg2)) :=
  (W1_arr m ρ c 2).trans (Support.final (V0 m ρ) c)

/-- The first region leaves the adjacency as launched. -/
theorem adjacency_at (c : Dev nD) : W1 m ρ c (Proc.devRef .tc main_arg1) = m ((c.tc : Thread nD τ).loc main_arg1) :=
  W1_of_ne m ρ c main_arg1 (by decide)

/-- After the second region the aggregate buffer holds `A · (X · W)` of the launch contents. -/
theorem aggregate_at (c : Dev nD) :
    W2 m ρ c (Proc.devRef .tc main_v1)
      = mmArr (m ((c.tc : Thread nD τ).loc main_arg1)) (mmArr (m ((c.tc : Thread nD τ).loc main_arg0)) (m ((c.tc : Thread nD τ).loc main_arg2))) := by
  refine ((W2_arr m ρ c 2).trans (Aggregate.final (V1 m ρ) c)).trans ?_
  show mmArr (W1 m ρ c (Proc.devRef .tc main_arg1)) (W1 m ρ c (Proc.devRef .tc main_v0)) = _
  rw [adjacency_at, support_at]

/-- The gain and the bias vectors are still as launched when the host stretch reads them. -/
theorem gain_before (c : Dev nD) : W2 m ρ c (Proc.devRef .tc main_arg3) = m ((c.tc : Thread nD τ).loc main_arg3) :=
  (W2_of_ne m ρ c main_arg3 (by decide)).trans (W1_of_ne m ρ c main_arg3 (by decide))
theorem bias_before (c : Dev nD) : W2 m ρ c (Proc.devRef .tc main_arg4) = m ((c.tc : Thread nD τ).loc main_arg4) :=
  (W2_of_ne m ρ c main_arg4 (by decide)).trans (W1_of_ne m ρ c main_arg4 (by decide))

/-- The host stretch leaves the gain laid out as one row. -/
theorem gain_row (c : Dev nD) :
    (W3 m ρ c (Proc.devRef .tc main_v2) : S1x128.Idx → EReal)
      = shapeCast S1x128 (m ((c.tc : Thread nD τ).loc main_arg3)) shapeCasts_S128_S1x128 := by
  show StableHlo.after hostOps2 (W2 m ρ c) (Proc.devRef .tc main_v2) = _
  after_results
  funext i
  show shapeCast S1x128 (W2 m ρ c (Proc.devRef .tc main_arg3)) shapeCasts_S128_S1x128 i = _
  rw [gain_before]

/-- … and the bias laid out as one row. -/
theorem bias_row (c : Dev nD) :
    (W3 m ρ c (Proc.devRef .tc main_v3) : S1x128.Idx → EReal)
      = shapeCast S1x128 (m ((c.tc : Thread nD τ).loc main_arg4)) shapeCasts_S128_S1x128 := by
  show StableHlo.after hostOps2 (W2 m ρ c) (Proc.devRef .tc main_v3) = _
  after_results
  funext i
  show shapeCast S1x128 (W2 m ρ c (Proc.devRef .tc main_arg4)) shapeCasts_S128_S1x128 i = _
  rw [bias_before]

/-- The host stretch does not touch the aggregate buffer. -/
theorem aggregate_kept (c : Dev nD) : W3 m ρ c (Proc.devRef .tc main_v1) = W2 m ρ c (Proc.devRef .tc main_v1) := by
  show StableHlo.after hostOps2 (W2 m ρ c) (Proc.devRef .tc main_v1) = _
  after_results

/-- The result array after the run: the layer of the launch contents of the five arguments. -/
theorem result_eq (c : Dev nD) :
    W4 m ρ c (Proc.devRef .tc main_v4)
      = layer (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) := by
  refine ((W4_arr m ρ c 3).trans (Normalised.final (V3 m ρ) c)).trans ?_
  show Normalised.rowsArr (W3 m ρ c (Proc.devRef .tc main_v1)) (W3 m ρ c (Proc.devRef .tc main_v2)) (W3 m ρ c (Proc.devRef .tc main_v3)) = _
  rw [aggregate_kept, aggregate_at, gain_row, bias_row]
  funext j
  obtain ⟨p, q, rfl⟩ : ∃ (p : Fin 10000) (q : Fin 128), j = ix2 p q := ⟨j 0, j 1, eq_ix2 j⟩
  unfold Normalised.rowsArr
  show Ideal.tanh (_ * shapeCast S1x128 _ shapeCasts_S128_S1x128 (ix2 (0 : Fin 1) q) + shapeCast S1x128 _ shapeCasts_S128_S1x128 (ix2 (0 : Fin 1) q)) = _
  rw [shapeCast_a_1a_apply, shapeCast_a_1a_apply]
  rfl

/-- The idealized kernel program's run with its result named: every weakly fair execution terminates with the result
    array at the layer of the argument arrays and the arguments unchanged. -/
theorem run : θ_run (defs (F := Ideal)) (onTc (τ := τ) (main (F := Ideal))) ⟨m, fun _ => 0, ρ⟩ (fun r => ∀ c : Dev nD,
      r.2.mem ((c.tc : Thread nD τ).loc main_v4)
        = layer (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (result_eq m ρ c), (h c).2⟩) (Run.run_result m ρ)

end Cert.KernelIdeal.Result

end
-- ==== Proof.RefRun.lean ====
/-
  The reference's @main as one straight line of host operations, and its run.

  The reference computes the layer in forty-seven host operations: the two dense products `X · W` and `A · (X · W)`, the
  column sums of the product and their quotient by the node count (the column means), a call of the outlined variance
  function — which sums the columns again, divides, centres, squares, sums the squares, divides by the node count less a
  zero correction, and selects that quotient where the corrected count is positive (a call of the outlined `where`) —,
  and then the centring, the scaling by the reciprocal square root of variance plus offset, by the gain, the shift, and
  `tanh`. Listed in order with the two calls unfolded over their buffer records, the program is a `seq` of the list, and
  its run ends with the result buffer at the operations' composed term `out` of the five arguments, the arguments
  unchanged. `out` is staged: the product `prod`, the mean and variance rows of an array `Y`, and the tail `tail Y g b`.
-/
import proofs.«141391_g16630113370192_cont_week2b_736_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the calls unfolded: eight of its own (the two products, the column sums and means, the
    integer zero), the variance function's nineteen into `main_call0`'s buffers, the selection's three into
    `main_call0.call0`'s, and @main's remaining seventeen. -/
abbrev ops : List (HloOp τ sig (Elt F)) :=
  [ binary main_arg0 main_arg2 main_v0 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    binary main_arg1 main_v0 main_v1 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    nullary main_cst (constant S_ .f32 0x00000000#32),
    binary main_v1 main_cst main_v2 ((fun x v => Host.reduceAdd x v reducesTo_S10000x128_S128_d0 h_S_) : (⟨S10000x128, .f32⟩ : BufTy).Contents (Elt F) → (⟨S_, .f32⟩ : BufTy).Contents (Elt F) → (⟨S128, .f32⟩ : BufTy).Contents (Elt F)),
    nullary main_cst_0 (constant S_ .f32 0x461C4000#32),
    unary main_cst_0 main_v3 (broadcastInDim S128 ![] bcast_S_S128 : (⟨S_, .f32⟩ : BufTy).Contents (Elt F) → (⟨S128, .f32⟩ : BufTy).Contents (Elt F)),
    binary main_v2 main_v3 main_v4 (Host.divf : (⟨S128, .f32⟩ : BufTy).Contents (Elt F) → (⟨S128, .f32⟩ : BufTy).Contents (Elt F) → (⟨S128, .f32⟩ : BufTy).Contents (Elt F)),
    nullary main_c (constantI S_ 32 0#32),
    TRef.nullary main_call0.cst (constant S_ .f32 0x00000000#32),
    TRef.binary (.of main_v1 : TRef sig ⟨S10000x128, .f32⟩) main_call0.cst main_call0.v0 (fun x v => Host.reduceAdd x v reducesTo_S10000x128_S128_d0 h_S_),
    TRef.unary main_call0.v0 main_call0.v1 (broadcastInDim S1x128 ![1] bcast_S128_S1x128_1),
    TRef.nullary main_call0.cst_0 (constant S_ .f32 0x461C4000#32),
    TRef.unary main_call0.cst_0 main_call0.v2 (broadcastInDim S1x128 ![] bcast_S_S1x128),
    TRef.binary main_call0.v1 main_call0.v2 main_call0.v3 Host.divf,
    TRef.unary main_call0.v3 main_call0.v4 (broadcastInDim S10000x128 ![0, 1] bcast_S1x128_S10000x128_0_1),
    TRef.binary (.of main_v1 : TRef sig ⟨S10000x128, .f32⟩) main_call0.v4 main_call0.v5 subf,
    TRef.binary main_call0.v5 main_call0.v5 main_call0.v6 mulf,
    TRef.unary (.of main_c : TRef sig ⟨S_, .i32⟩) main_call0.v7 (sitofp .f32),
    TRef.nullary main_call0.cst_1 (constant S_ .f32 0x461C4000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S10000x128_S128_d0 h_S_),
    TRef.unary main_call0.v8 main_call0.v10 (broadcastInDim S128 ![] bcast_S_S128),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S128 ![] bcast_S_S128),
    TRef.ternary main_call0.v12 main_call0.v11 main_call0.call0.v1 main_call0.call0.v2 (fun p a b => select (broadcastInDim S128 ![] bcast_S_S128 p) a b),
    unary main_v4 main_v6 (broadcastInDim S1x128 ![1] bcast_S128_S1x128_1 : (⟨S128, .f32⟩ : BufTy).Contents (Elt F) → (⟨S1x128, .f32⟩ : BufTy).Contents (Elt F)),
    unary main_v6 main_v7 (broadcastInDim S10000x128 ![0, 1] bcast_S1x128_S10000x128_0_1 : (⟨S1x128, .f32⟩ : BufTy).Contents (Elt F) → (⟨S10000x128, .f32⟩ : BufTy).Contents (Elt F)),
    binary main_v1 main_v7 main_v8 (subf : (⟨S10000x128, .f32⟩ : BufTy).Contents (Elt F) → (⟨S10000x128, .f32⟩ : BufTy).Contents (Elt F) → (⟨S10000x128, .f32⟩ : BufTy).Contents (Elt F)),
    nullary main_cst_1 (constant S_ .f32 0x3727C5AC#32),
    unary main_cst_1 main_v9 (broadcastInDim S128 ![] bcast_S_S128 : (⟨S_, .f32⟩ : BufTy).Contents (Elt F) → (⟨S128, .f32⟩ : BufTy).Contents (Elt F)),
    binary main_v5 main_v9 main_v10 (addf : (⟨S128, .f32⟩ : BufTy).Contents (Elt F) → (⟨S128, .f32⟩ : BufTy).Contents (Elt F) → (⟨S128, .f32⟩ : BufTy).Contents (Elt F)),
    unary main_v10 main_v11 (Host.rsqrt : (⟨S128, .f32⟩ : BufTy).Contents (Elt F) → (⟨S128, .f32⟩ : BufTy).Contents (Elt F)),
    unary main_v11 main_v12 (broadcastInDim S1x128 ![1] bcast_S128_S1x128_1 : (⟨S128, .f32⟩ : BufTy).Contents (Elt F) → (⟨S1x128, .f32⟩ : BufTy).Contents (Elt F)),
    unary main_v12 main_v13 (broadcastInDim S10000x128 ![0, 1] bcast_S1x128_S10000x128_0_1 : (⟨S1x128, .f32⟩ : BufTy).Contents (Elt F) → (⟨S10000x128, .f32⟩ : BufTy).Contents (Elt F)),
    binary main_v8 main_v13 main_v14 (mulf : (⟨S10000x128, .f32⟩ : BufTy).Contents (Elt F) → (⟨S10000x128, .f32⟩ : BufTy).Contents (Elt F) → (⟨S10000x128, .f32⟩ : BufTy).Contents (Elt F)),
    unary main_arg3 main_v15 (broadcastInDim S1x128 ![1] bcast_S128_S1x128_1 : (⟨S128, .f32⟩ : BufTy).Contents (Elt F) → (⟨S1x128, .f32⟩ : BufTy).Contents (Elt F)),
    unary main_v15 main_v16 (broadcastInDim S10000x128 ![0, 1] bcast_S1x128_S10000x128_0_1 : (⟨S1x128, .f32⟩ : BufTy).Contents (Elt F) → (⟨S10000x128, .f32⟩ : BufTy).Contents (Elt F)),
    binary main_v14 main_v16 main_v17 (mulf : (⟨S10000x128, .f32⟩ : BufTy).Contents (Elt F) → (⟨S10000x128, .f32⟩ : BufTy).Contents (Elt F) → (⟨S10000x128, .f32⟩ : BufTy).Contents (Elt F)),
    unary main_arg4 main_v18 (broadcastInDim S1x128 ![1] bcast_S128_S1x128_1 : (⟨S128, .f32⟩ : BufTy).Contents (Elt F) → (⟨S1x128, .f32⟩ : BufTy).Contents (Elt F)),
    unary main_v18 main_v19 (broadcastInDim S10000x128 ![0, 1] bcast_S1x128_S10000x128_0_1 : (⟨S1x128, .f32⟩ : BufTy).Contents (Elt F) → (⟨S10000x128, .f32⟩ : BufTy).Contents (Elt F)),
    binary main_v17 main_v19 main_v20 (addf : (⟨S10000x128, .f32⟩ : BufTy).Contents (Elt F) → (⟨S10000x128, .f32⟩ : BufTy).Contents (Elt F) → (⟨S10000x128, .f32⟩ : BufTy).Contents (Elt F)),
    unary main_v20 main_v21 (Host.tanh : (⟨S10000x128, .f32⟩ : BufTy).Contents (Elt F) → (⟨S10000x128, .f32⟩ : BufTy).Contents (Elt F)) ]

set_option maxRecDepth 4096 in
/-- @main is that straight line: the two functions unfolded at their calls and the records at their fields, both sides
    are one chain of steps once the sequencing is reassociated. -/
theorem main_eq (c : Dev nD) : main (F := F) c = seq ops := by
  simp only [main, fn_var.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., unary_bufs_sub ..⟩

/-! ## The composed term, staged -/

/-- The product `A · (X · W)` as the two contractions compute it. -/
def prod (X : (⟨S10000x128, .f32⟩ : BufTy).Contents (Elt F)) (A : (⟨S10000x10000, .f32⟩ : BufTy).Contents (Elt F)) (W : (⟨S128x128, .f32⟩ : BufTy).Contents (Elt F)) : (⟨S10000x128, .f32⟩ : BufTy).Contents (Elt F) :=
  Host.dotGeneral dot_S10000x10000_S10000x128_S10000x128_1_0_0_1_n_n none A
    (Host.dotGeneral dot_S10000x128_S128x128_S10000x128_1_0_0_1_n_n none X W)

/-- The row of column means of `Y`: the column sums from zero, divided by the node count. -/
def meanRow (Y : (⟨S10000x128, .f32⟩ : BufTy).Contents (Elt F)) : (⟨S128, .f32⟩ : BufTy).Contents (Elt F) :=
  Host.divf (Host.reduceAdd Y (constant S_ .f32 0x00000000#32) reducesTo_S10000x128_S128_d0 h_S_)
    (broadcastInDim S128 ![] bcast_S_S128 (constant S_ .f32 0x461C4000#32))

/-- The node count less the (zero) correction, as the variance function computes it. -/
def corrCount : (⟨S_, .f32⟩ : BufTy).Contents (Elt F) :=
  subf (constant S_ .f32 0x461C4000#32) (sitofp .f32 (constantI S_ 32 0#32))

/-- The squared deviations of `Y` from its column means, the means recomputed as the variance function does (on a
    one-row array laid down over the rows). -/
def sqDev (Y : (⟨S10000x128, .f32⟩ : BufTy).Contents (Elt F)) : (⟨S10000x128, .f32⟩ : BufTy).Contents (Elt F) :=
  mulf
    (subf Y (broadcastInDim S10000x128 ![0, 1] bcast_S1x128_S10000x128_0_1
      (Host.divf (broadcastInDim S1x128 ![1] bcast_S128_S1x128_1
          (Host.reduceAdd Y (constant S_ .f32 0x00000000#32) reducesTo_S10000x128_S128_d0 h_S_))
        (broadcastInDim S1x128 ![] bcast_S_S1x128 (constant S_ .f32 0x461C4000#32)))))
    (subf Y (broadcastInDim S10000x128 ![0, 1] bcast_S1x128_S10000x128_0_1
      (Host.divf (broadcastInDim S1x128 ![1] bcast_S128_S1x128_1
          (Host.reduceAdd Y (constant S_ .f32 0x00000000#32) reducesTo_S10000x128_S128_d0 h_S_))
        (broadcastInDim S1x128 ![] bcast_S_S1x128 (constant S_ .f32 0x461C4000#32)))))

/-- The row of column variances of `Y` as the variance function returns it: the column sums of the squared deviations
    over the corrected count where that count is positive, the not-a-number word elsewhere. -/
def varRow (Y : (⟨S10000x128, .f32⟩ : BufTy).Contents (Elt F)) : (⟨S128, .f32⟩ : BufTy).Contents (Elt F) :=
  select (broadcastInDim S128 ![] bcast_S_S128 (cmpf .ogt (corrCount (F := F)) (constant S_ .f32 0x00000000#32)))
    (Host.divf (Host.reduceAdd (sqDev Y) (constant S_ .f32 0x00000000#32) reducesTo_S10000x128_S128_d0 h_S_)
      (broadcastInDim S128 ![] bcast_S_S128 (corrCount (F := F))))
    (broadcastInDim S128 ![] bcast_S_S128 (id (constant S_ .f32 0x7FC00000#32)))

/-- A row laid down over all the rows of a `[10000, 128]` array. -/
def overRows (r : (⟨S128, .f32⟩ : BufTy).Contents (Elt F)) : (⟨S10000x128, .f32⟩ : BufTy).Contents (Elt F) :=
  broadcastInDim S10000x128 ![0, 1] bcast_S1x128_S10000x128_0_1 (broadcastInDim S1x128 ![1] bcast_S128_S1x128_1 r)

/-- Everything after the product: centre, scale by the reciprocal root of variance plus offset, gain, shift, `tanh`. -/
def tail (Y : (⟨S10000x128, .f32⟩ : BufTy).Contents (Elt F)) (g b : (⟨S128, .f32⟩ : BufTy).Contents (Elt F)) : (⟨S10000x128, .f32⟩ : BufTy).Contents (Elt F) :=
  Host.tanh (addf (mulf (mulf (subf Y (overRows (meanRow Y)))
      (overRows (Host.rsqrt (addf (varRow Y) (broadcastInDim S128 ![] bcast_S_S128 (constant S_ .f32 0x3727C5AC#32))))))
    (overRows g)) (overRows b))

/-- The reference's result as one term of its five arguments. -/
def out (X : (⟨S10000x128, .f32⟩ : BufTy).Contents (Elt F)) (A : (⟨S10000x10000, .f32⟩ : BufTy).Contents (Elt F)) (W : (⟨S128x128, .f32⟩ : BufTy).Contents (Elt F)) (g b : (⟨S128, .f32⟩ : BufTy).Contents (Elt F)) : (⟨S10000x128, .f32⟩ : BufTy).Contents (Elt F) :=
  tail (prod X A W) g b

attribute [local irreducible] Host.reduceAdd in
set_option maxHeartbeats 800000 in
/-- The fold of the operations at the result buffer is `out` of the arguments' contents: the fold unrolled, each
    operation's result decides whether the buffer read is the one it writes, and the typed references' transports are
    the identity at literal references; the sums and contractions stay folded throughout. -/
theorem out_eq (V : Valuation τ sig (Elt F)) :
    after ops V (main_v21 : DevRef τ sig)
      = out (V (main_arg0 : DevRef τ sig)) (V (main_arg1 : DevRef τ sig)) (V (main_arg2 : DevRef τ sig))
          (V (main_arg3 : DevRef τ sig)) (V (main_arg4 : DevRef τ sig)) := by
  simp only [after_cons, after_nil]
  rfl

theorem arg0_eq (V : Valuation τ sig (Elt F)) : after ops V (main_arg0 : DevRef τ sig) = V (main_arg0 : DevRef τ sig) := by
  simp only [after_cons, after_nil]
  rfl
theorem arg1_eq (V : Valuation τ sig (Elt F)) : after ops V (main_arg1 : DevRef τ sig) = V (main_arg1 : DevRef τ sig) := by
  simp only [after_cons, after_nil]
  rfl
theorem arg2_eq (V : Valuation τ sig (Elt F)) : after ops V (main_arg2 : DevRef τ sig) = V (main_arg2 : DevRef τ sig) := by
  simp only [after_cons, after_nil]
  rfl
theorem arg3_eq (V : Valuation τ sig (Elt F)) : after ops V (main_arg3 : DevRef τ sig) = V (main_arg3 : DevRef τ sig) := by
  simp only [after_cons, after_nil]
  rfl
theorem arg4_eq (V : Valuation τ sig (Elt F)) : after ops V (main_arg4 : DevRef τ sig) = V (main_arg4 : DevRef τ sig) := by
  simp only [after_cons, after_nil]
  rfl

/-- On every device, for any float values, from any memory with zero counters: every weakly fair execution of @main
    terminates with the result buffer at `out` of the arguments' launch contents and the arguments unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v21)
          = out (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v21).trans (out_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c))⟩)
    (run_seq scopedRefs_eq scopedSems_eq defs main (fun _ => ops) main_eq (fun _ => ops_sub) m ρ)

end Cert.ReferenceIdeal.RefRun

end
-- ==== Proof.CountWord.lean ====
/-
  The node count's word, evaluated once.

  The f32 word `0x461C4000` has sign 0, exponent field 140 and significand field `0x1C4000`, so it denotes
  `(2^23 + 1851392) · 2^(140 − 127 − 23) = 10240000 / 1024 = 10000`. The layer itself never needs the value, only that it is
  the same word on both sides; the one use of the value is that it is positive (and so not zero), which the reference's
  variance function tests before it divides.
-/
import proofs.«141391_g16630113370192_cont_week2b_736_2_alg».proof.Proof.Layer

noncomputable section

namespace Cert.GraphNorm

open Idealize.ShloMosaic

/-- The count's word denotes the real ten thousand. -/
theorem count_eq : count = ((10000 : ℝ) : EReal) := by
  unfold count
  simp [Ideal.ofBits, Ideal.ieee, -EReal.coe_mul]; norm_num

/-- The count is positive. -/
theorem count_pos : (0 : EReal) < count := by
  rw [count_eq]
  exact_mod_cast (by norm_num : (0 : ℝ) < 10000)

/-- The count is not zero. -/
theorem count_ne_zero : count ≠ 0 := ne_of_gt count_pos

end Cert.GraphNorm

end
-- ==== Proof.RefValue.lean ====
/-
  The reference's result is the layer.

  The composed term of the reference's run, read at an index `(p, q)` of the result at the extended reals, is the layer's
  formula entry by entry. The two contractions are sums over the contracted coordinate, so their composite is
  `A · (X · W)`. Each host sum down the columns starts from the zero word, which adds nothing. The variance function
  recomputes the column means on a one-row array and lays them over the rows — the same quotient of the same sum by the same
  count; it divides the sum of squared deviations by the count less a converted integer zero, which is the count; and it
  keeps that quotient only where the corrected count is positive, which it is: the count's word denotes the real ten
  thousand (evaluated once, beside the layer's definition). Rows laid over the matrix read their entry at the column. What remains is
  the layer's expression verbatim, with the count and the offset still the unevaluated words.
-/
import proofs.«141391_g16630113370192_cont_week2b_736_2_alg».proof.Proof.RefRun
import proofs.«141391_g16630113370192_cont_week2b_736_2_alg».proof.Proof.Layer
import proofs.«141391_g16630113370192_cont_week2b_736_2_alg».proof.Proof.CountWord
import proofs.«141391_g16630113370192_cont_week2b_736_2_alg».proof.Proof.LibDenseRows
import proofs.«141391_g16630113370192_cont_week2b_736_2_alg».proof.Proof.LibColumnSums

noncomputable section

namespace Cert.ReferenceIdeal.RefValue

open Cert.ReferenceIdeal Cert.ReferenceIdeal.Gen Cert.ReferenceIdeal.RefRun
open Idealize.ShloMosaic Idealize.ShloMosaic.ValueIdx Idealize.ShloMosaic.TcCoe Idealize.SL.Sem
open scoped BigOperators

/-! ## The corrected count -/

/-- The count less the converted integer zero is the count. -/
theorem corrCount_apply (i : S_.Idx) : corrCount (F := Ideal) i = GraphNorm.count := by
  show Ideal.ofBits .f32 0x461C4000#32 - (Scalar.sitofp .f32 0#32 : Ideal .f32) = _
  rw [sitofp_zero, sub_zero]
  rfl

/-! ## The host operations at an index -/

theorem hostTanh_apply {s : Shape} (x : FVec Ideal s .f32) (i : s.Idx) : Host.tanh x i = Ideal.tanh (x i) := rfl
theorem hostRsqrt_apply {s : Shape} (x : FVec Ideal s .f32) (i : s.Idx) : Host.rsqrt x i = Ideal.rsqrt (x i) := rfl

/-- A host sum down the columns from the zero word is the sum of the column. -/
theorem colSum0_apply (x : S10000x128.Idx → EReal) (q : Fin 128) :
    Host.reduceAdd (F := Ideal) x (constant (F := Ideal) S_ .f32 0x00000000#32) reducesTo_S10000x128_S128_d0 h_S_ (ix1 q)
      = ∑ k : Fin 10000, x (ix2 k q) := by
  rw [ColumnSums.hostColSum_apply x _ reducesTo_S10000x128_S128_d0 h_S_ (by decide) q, constant_apply,
    Ideal.ofBits_zero_f32, zero_add]

/-- A row laid over the rows reads, at `(p, q)`, its entry at `q`. -/
theorem overRows_apply (r : S128.Idx → EReal) (p : Fin 10000) (q : Fin 128) :
    overRows (F := Ideal) r (ix2 p q) = r (ix1 q) :=
  DenseRows.rowBias_inDim_apply r bcast_S128_S1x128_1 bcast_S1x128_S10000x128_0_1 p q

/-! ## The stages -/

/-- The reference's mean row is the layer's column mean. -/
theorem meanRow_apply (Y : S10000x128.Idx → EReal) (q : Fin 128) :
    meanRow (F := Ideal) Y (ix1 q) = GraphNorm.colMean Y q := by
  unfold meanRow
  rw [hostDivf_apply, colSum0_apply, broadcastInDim_scalar_apply, constant_apply]
  rfl

/-- The variance function's squared deviation at `(p, q)` is the square of the layer's centred entry. -/
theorem sqDev_apply (Y : S10000x128.Idx → EReal) (p : Fin 10000) (q : Fin 128) :
    sqDev (F := Ideal) Y (ix2 p q) = GraphNorm.centred Y p q * GraphNorm.centred Y p q := by
  unfold sqDev
  rw [mulf_apply, subf_apply, broadcastInDim_oneRow_apply, hostDivf_apply, DenseRows.broadcastInDim_a_1a_apply,
    colSum0_apply, broadcastInDim_scalar_apply, constant_apply]
  rfl

/-- The selection's condition bit is one: the corrected count is positive. -/
theorem cond_apply (q : Fin 128) :
    broadcastInDim S128 ![] bcast_S_S128
        (cmpf .ogt (corrCount (F := Ideal)) (constant (F := Ideal) S_ .f32 0x00000000#32)) (ix1 q) = 1#1 := by
  rw [broadcastInDim_scalar_apply, cmpf_apply, corrCount_apply, constant_apply, Ideal.ofBits_zero_f32, Ideal.cmpf_def]
  show BitVec.ofBool (decide ((0 : EReal) < GraphNorm.count)) = 1#1
  rw [decide_eq_true GraphNorm.count_pos]
  rfl

/-- The reference's variance row is the layer's column variance. -/
theorem varRow_apply (Y : S10000x128.Idx → EReal) (q : Fin 128) :
    varRow (F := Ideal) Y (ix1 q) = GraphNorm.colVar Y q := by
  unfold varRow
  rw [select_apply, cond_apply, select_one, hostDivf_apply, colSum0_apply, broadcastInDim_scalar_apply, corrCount_apply]
  exact congrArg (fun s => Ideal.div s GraphNorm.count) (Finset.sum_congr rfl fun k _ => sqDev_apply Y k q)

/-- The reference's tail on an array `Y` is the layer's normalisation of `Y`, entry by entry. -/
theorem tail_eq (Y : S10000x128.Idx → EReal) (g b : S128.Idx → EReal) :
    tail (F := Ideal) Y g b = fun j => GraphNorm.normTanh Y g b (j 0) (j 1) := by
  funext j
  obtain ⟨p, q, rfl⟩ : ∃ (p : Fin 10000) (q : Fin 128), j = ix2 p q := ⟨j 0, j 1, eq_ix2 j⟩
  unfold tail
  rw [hostTanh_apply, addf_apply, mulf_apply, mulf_apply, subf_apply, overRows_apply, overRows_apply, overRows_apply,
    overRows_apply, meanRow_apply, hostRsqrt_apply, addf_apply, varRow_apply, broadcastInDim_scalar_apply, constant_apply]
  rfl

/-- The two contractions compose to `A · (X · W)`. -/
theorem prod_eq (X : S10000x128.Idx → EReal) (A : S10000x10000.Idx → EReal) (W : S128x128.Idx → EReal) :
    prod (F := Ideal) X A W = GraphNorm.mmArr A (GraphNorm.mmArr X W) := by
  funext j
  obtain ⟨p, q, rfl⟩ : ∃ (p : Fin 10000) (q : Fin 128), j = ix2 p q := ⟨j 0, j 1, eq_ix2 j⟩
  unfold prod
  rw [DenseRows.dotGeneral_plain_apply dot_S10000x10000_S10000x128_S10000x128_1_0_0_1_n_n rfl rfl rfl rfl
    (fun _ _ => rfl) (fun _ _ => rfl), GraphNorm.mmArr_apply]
  unfold GraphNorm.mm
  refine Finset.sum_congr rfl fun k _ => ?_
  rw [DenseRows.dotGeneral_plain_apply dot_S10000x128_S128x128_S10000x128_1_0_0_1_n_n rfl rfl rfl rfl
    (fun _ _ => rfl) (fun _ _ => rfl), GraphNorm.mmArr_apply]
  rfl

/-- The reference's result term is the layer of its five arguments. -/
theorem out_eq_layer (X : S10000x128.Idx → EReal) (A : S10000x10000.Idx → EReal) (W : S128x128.Idx → EReal)
    (g b : S128.Idx → EReal) : out (F := Ideal) X A W g b = GraphNorm.layer X A W g b := by
  unfold out
  rw [prod_eq, tail_eq]
  rfl

/-! ## The run, with the layer -/

/-- On every device, from any memory with zero counters: every weakly fair execution of the reference terminates with the
    result buffer at the layer of the arguments' launch contents and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v21) = Cert.GraphNorm.layer (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (out_eq_layer _ _ _ _ _), (h c).2⟩) (RefRun.run (F := Ideal) m ρ)

end Cert.ReferenceIdeal.RefValue

end
-- ==== Proof.lean ====
/-
  A graph-convolution layer with batch normalisation, as a kernel program and as its reference: both compute, on the
  extended reals, `tanh` of the column-normalised `A · (X · W)`, scaled by the gain and shifted by the bias
  (`Proof/Layer.lean` states that function of the five arrays).

  The kernel program is three kernel regions — the support matrix `X · W`; `A` times it, band of 400 rows by band; the
  column statistics, the normalisation and `tanh` — and its result is read off the buffer contents its run passes through
  (`Proof/KernelValue.lean`). The reference is a straight line of host operations, with the variance in an outlined
  function; its result is that line's composed term (`Proof/RefValue.lean`). The two agree without any hypothesis on
  the arrays: a product accumulated into zero and a sum started from zero are the plain sums (`0 + x = x` on every
  extended real), a sum over a `Fin` does not depend on how it is cut into bands, and the reference's guard on the
  variance's divisor is decided (`10000 − 0 > 0`), so both sides are the same expression of the same sums. Nothing was
  rewritten when the kernel was idealized, so that claim is trivial; the three frame claims are the programs' runs with the
  result forgotten.
-/
import proofs.«141391_g16630113370192_cont_week2b_736_2_alg».proof.Defs
import proofs.«141391_g16630113370192_cont_week2b_736_2_alg».proof.Proof.Gen.Kernel
import proofs.«141391_g16630113370192_cont_week2b_736_2_alg».proof.Proof.Gen.Kernel.Frame
import proofs.«141391_g16630113370192_cont_week2b_736_2_alg».proof.Proof.Gen.KernelIdeal
import proofs.«141391_g16630113370192_cont_week2b_736_2_alg».proof.Proof.Gen.KernelIdeal.Frame
import proofs.«141391_g16630113370192_cont_week2b_736_2_alg».proof.Proof.Gen.ReferenceIdeal
import proofs.«141391_g16630113370192_cont_week2b_736_2_alg».proof.Proof.Gen.Pre_finite_inputs
import proofs.«141391_g16630113370192_cont_week2b_736_2_alg».proof.Proof.KernelValue
import proofs.«141391_g16630113370192_cont_week2b_736_2_alg».proof.Proof.RefValue

noncomputable section

namespace Cert.Proof

open Idealize.ShloMosaic Idealize.ShloMosaic.TcCoe Idealize.SL.Sem

/-- The kernel program as printed runs and returns its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and returns its arguments: its run with the result forgotten. -/
theorem frame_referenceIdeal : Cert.frame_ReferenceIdeal := fun m ρ _ =>
  (θ_run Cert.ReferenceIdeal.defs _ _).mono (fun _ h c => (h c).2) (Cert.ReferenceIdeal.RefValue.run m ρ)

/-- The idealization rewrote nothing. -/
theorem preserves : Cert.preserves_Kernel_KernelIdeal := trivial

/-- From memories that agree on the five arguments both programs end with the layer of those arguments in their result
    arrays. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
